-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S4x4096x256 .f32) (main_arg1 : FVec F S256x256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S4x4096x256 : Shape := ⟨3, ![4, 4096, 256]⟩
abbrev S256x256 : Shape := ⟨2, ![256, 256]⟩
abbrev S_ : Shape := ⟨0, ![]⟩
abbrev S1x4096x256 : Shape := ⟨3, ![1, 4096, 256]⟩
abbrev S1x1024x256 : Shape := ⟨3, ![1, 1024, 256]⟩
abbrev S4096x256 : Shape := ⟨2, ![4096, 256]⟩
abbrev S1024x256 : Shape := ⟨2, ![1024, 256]⟩

abbrev nBuf : Space → Nat
  | .hbm => 13
  | .vmem => 6
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256x256, .i32⟩
  | .hbm, ⟨3, _⟩ => ⟨S_, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S4x4096x256, .f32⟩
  | .local _ .vmem, ⟨0, _⟩ => ⟨S1x4096x256, .f32⟩
  | .local _ .vmem, ⟨1, _⟩ => ⟨S1x4096x256, .f32⟩
  | .local _ .vmem, ⟨2, _⟩ => ⟨S256x256, .f32⟩
  | .local _ .vmem, ⟨3, _⟩ => ⟨S1x1024x256, .f32⟩
  | .local _ .vmem, ⟨4, _⟩ => ⟨S1x1024x256, .f32⟩
  | .local _ .vmem, ⟨5, _⟩ => ⟨S256x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_c : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_cst : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 3 → Nat :=
  let c0 : Index := 0#32
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S256x256 : S_.BroadcastsInDim S256x256 (![] : Fin 0 → Fin S256x256.rank)
  transposes_S256x256_S256x256_1_0 : S256x256.Transposes [1, 0] S256x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  h_S1x1024x256 : 0 < S1x1024x256.numel
  shapeCasts_S1x1024x256_S1024x256 : S1x1024x256.ShapeCasts S1024x256
  inb_S1x1024x256_S1x1024x256_0_0_0 : ∀ a, (![0, 0, 0] : Fin 3 → Nat) a + S1x1024x256.size a ≤ S1x1024x256.size a
  shapeCasts_S1024x256_S1x1024x256 : S1024x256.ShapeCasts S1x1024x256
  dot_S4096x256_S4096x256_S256x256_0_0_1_1_n_n_wf : DotDims.WF S4096x256 S4096x256 S256x256 [0] [0] [1] [1] [] []
  dot_S256x256_S256x256_S256x256_1_0_0_1_n_n_wf : DotDims.WF S256x256 S256x256 S256x256 [1] [0] [0] [1] [] []
  dot_S1024x256_S256x256_S1024x256_1_0_0_1_n_n_wf : DotDims.WF S1024x256 S256x256 S1024x256 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1x1024x256.size a ≤ S1x4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S4x4096x256.size a
  hwx0_0 : ∀ i : grid0.Coords, EltTy.bits .f32 = 32 ∨ (Rect.block (s := S4x4096x256) S1x4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S4x4096x256.size a
  hwx0_2 : ∀ i : grid0.Coords, EltTy.bits .f32 = 32 ∨ (Rect.block (s := S4x4096x256) S1x1024x256.size (cc0_transform_2 i) (hinb0_2 i)).WholeWords (EltTy.packing .f32)

variable [Facts₀]

def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x256 : Shape := ⟨3, ![4, 4096, 256]⟩
abbrev S256x256 : Shape := ⟨2, ![256, 256]⟩
abbrev S_ : Shape := ⟨0, ![]⟩
abbrev S4x4096x4096 : Shape := ⟨3, ![4, 4096, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256x256, .i32⟩
  | .hbm, ⟨3, _⟩ => ⟨S_, .i32⟩
  | .hbm, ⟨4, _⟩ => ⟨S256x256, .i32⟩
  | .hbm, ⟨5, _⟩ => ⟨S256x256, .i32⟩
  | .hbm, ⟨6, _⟩ => ⟨S256x256, .i32⟩
  | .hbm, ⟨7, _⟩ => ⟨S256x256, .i1⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S4x4096x256, .f32⟩
  | .hbm, ⟨12, _⟩ => ⟨S4x4096x4096, .f32⟩
  | .hbm, ⟨13, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_c : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_cst : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.Pieces.lean ====
/-
  What one run of the kernel body leaves behind, as values of its loads, at any float instance.

  The body has two cases. At the first row tile of a batch it computes, from the whole resident batch `x0` and the
  staged weights `x1`, the mixed matrix (payload 1) and stores it whole into the carried scratch; in every case it
  then loads one row tile of `x0` (1024 rows from the tile's row offset), reads the scratch back whole, and stores
  their product (payload 2) whole into the output block. So

    first tile : scratch ← pay1 x0 x1 ,  output ← pay2 (tile of x0) (pay1 x0 x1)
    later tiles: scratch unchanged    ,  output ← pay2 (tile of x0) (scratch as the tile before left it).

  Each store covers its buffer through the whole-shape rectangle at zero offsets, so reading the pieces back gives the
  payload itself; a load through that rectangle reads the contents unchanged.
-/
import proofs.«114785_j50362786513377_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The row tile of the resident batch that the body loads at grid coordinates `i`: 1024 rows from the tile's offset. -/
abbrev tile (i : grid0.Coords) (x0 : Vec F S1x4096x256 .f32) : Vec F S1x1024x256 .f32 :=
  View.ld x0 (Rect.unit (s := S1x4096x256) (k0_off1 i) S1x1024x256.size (k0_off1_inb i))

/-- FIRST TILE, the scratch: the mixed matrix of the batch and the weights. -/
theorem scratch_first (c : Dev nD) (i : grid0.Coords) (a2 : Memref sig .tc .vmem S1x4096x256 .f32) (h2 : a2.IsWhole)
    (a3 : Memref sig .tc .vmem S256x256 .f32) (h3 : a3.IsWhole) (a4 : Memref sig .tc .vmem S1x1024x256 .f32) (h4 : a4.IsWhole)
    (a5 : Memref sig .tc .vmem S256x256 .f32) (h5 : a5.IsWhole) (hc : cond0_0 i)
    (x0 : Vec F S1x4096x256 .f32) (x1 : Vec F S256x256 .f32) :
    sout0_A_0 c i a2 h2 a3 h3 a4 h4 a5 h5 hc x0 x1 = k0_pay1 x0 x1 := by
  unfold sout0_A_0
  rw [View.read_writes_eq_canon _ _ _ (scover0_A_0 c i a2 h2 a3 h3 a4 h4 a5 h5 hc x0 x1)]
  unfold kernelRun0_A
  dsimp only
  sl_unfold_run_names
  rw [View.canon_unit_zero (S := S256x256) zeros2]
  simp only [View.readAt_eq_ld, h2.read_unread, h3.read_unread, View.ld_unit_zero (S := S1x4096x256) zeros3,
    View.ld_unit_zero (S := S256x256) zeros2]

/-- FIRST TILE, the output block: the tile applied to the mixed matrix just stored. -/
theorem out_first (c : Dev nD) (i : grid0.Coords) (a2 : Memref sig .tc .vmem S1x4096x256 .f32) (h2 : a2.IsWhole)
    (a3 : Memref sig .tc .vmem S256x256 .f32) (h3 : a3.IsWhole) (a4 : Memref sig .tc .vmem S1x1024x256 .f32) (h4 : a4.IsWhole)
    (a5 : Memref sig .tc .vmem S256x256 .f32) (h5 : a5.IsWhole) (hc : cond0_0 i)
    (x0 : Vec F S1x4096x256 .f32) (x1 : Vec F S256x256 .f32) :
    out0_A_2 c i a2 h2 a3 h3 a4 h4 a5 h5 hc x0 x1 = k0_pay2 (tile i x0) (k0_pay1 x0 x1) := by
  unfold out0_A_2
  rw [View.read_writes_eq_canon _ _ _ (cover0_A_2 c i a2 h2 a3 h3 a4 h4 a5 h5 hc x0 x1)]
  unfold kernelRun0_A
  dsimp only
  sl_unfold_run_names
  rw [View.canon_unit_zero (S := S1x1024x256) zeros3, View.readCov_unit_zero (S := S256x256) _ zeros2]
  simp only [View.readAt_eq_ld, h2.read_unread, h3.read_unread, View.ld_unit_zero (S := S1x4096x256) zeros3,
    View.ld_unit_zero (S := S256x256) zeros2]

/-- LATER TILES, the output block: the tile applied to the scratch as it was found. -/
theorem out_later (c : Dev nD) (i : grid0.Coords) (a2 : Memref sig .tc .vmem S1x4096x256 .f32) (h2 : a2.IsWhole)
    (a3 : Memref sig .tc .vmem S256x256 .f32) (h3 : a3.IsWhole) (a4 : Memref sig .tc .vmem S1x1024x256 .f32) (h4 : a4.IsWhole)
    (a5 : Memref sig .tc .vmem S256x256 .f32) (h5 : a5.IsWhole) (hc : ¬cond0_0 i)
    (x0 : Vec F S1x4096x256 .f32) (x1 : Vec F S256x256 .f32) (xs0 : Vec F S256x256 .f32) :
    out0_B_2 c i a2 h2 a3 h3 a4 h4 a5 h5 hc x0 x1 xs0 = k0_pay2 (tile i x0) xs0 := by
  unfold out0_B_2
  rw [View.read_writes_eq_canon _ _ _ (cover0_B_2 c i a2 h2 a3 h3 a4 h4 a5 h5 hc x0 x1 xs0)]
  unfold kernelRun0_B
  dsimp only
  rw [View.canon_unit_zero (S := S1x1024x256) zeros3]
  simp only [View.readAt_eq_ld, h2.read_unread, h5.read_unread, View.ld_unit_zero (S := S256x256) zeros2]

end Cert.KernelIdeal.Pieces

end
-- ==== Proof.Payloads.lean ====
/-
  The body's two payloads read at an index, at the ideal instance, where a `tpu.matmul` into the zero accumulator is
  the plain sum of products over the contracted axis and a change of shape only renames indices.

    payload 1 (the mixed matrix), at (p, q):  Σ_s x1[p, s] · Σ_m x0[0, m, s] · x0[0, m, q]
        — the Gram matrix of the resident batch's 4096 rows (both operands contracted over the ROW axis), with the
          staged weights applied on the left;
    payload 2 (the output block), at (0, r, q):  Σ_k x6[0, r, k] · x8[k, q]
        — a row tile times the matrix in the scratch.
-/
import proofs.«114785_j50362786513377_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Payload

open Idealize.ShloMosaic Idealize.ShloMosaic.ValueIdx Cert.KernelIdeal Cert.KernelIdeal.Gen

/-! ## Where each product reads its operands: the coordinates that are not contracted -/

theorem gram_lhs_col (j : S256x256.Idx) (k : dot_S4096x256_S4096x256_S256x256_0_0_1_1_n_n.contr.Idx) :
    (dot_S4096x256_S4096x256_S256x256_0_0_1_1_n_n.lhsIdx j k 1).val = (j 0).val := by
  unfold DotDims.lhsIdx
  rw [dif_neg (show ¬(1 : Fin S4096x256.rank) ∈ dot_S4096x256_S4096x256_S256x256_0_0_1_1_n_n.lhsBatch by decide), dif_pos (show (1 : Fin S4096x256.rank) ∈ dot_S4096x256_S4096x256_S256x256_0_0_1_1_n_n.lhsNonContracting by decide)]
  rfl

theorem gram_rhs_col (j : S256x256.Idx) (k : dot_S4096x256_S4096x256_S256x256_0_0_1_1_n_n.contr.Idx) :
    (dot_S4096x256_S4096x256_S256x256_0_0_1_1_n_n.rhsIdx j k 1).val = (j 1).val := by
  unfold DotDims.rhsIdx
  rw [dif_neg (show ¬(1 : Fin S4096x256.rank) ∈ dot_S4096x256_S4096x256_S256x256_0_0_1_1_n_n.rhsBatch by decide), dif_pos (show (1 : Fin S4096x256.rank) ∈ dot_S4096x256_S4096x256_S256x256_0_0_1_1_n_n.rhsNonContracting by decide)]
  rfl

theorem square_lhs_row (j : S256x256.Idx) (k : dot_S256x256_S256x256_S256x256_1_0_0_1_n_n.contr.Idx) :
    (dot_S256x256_S256x256_S256x256_1_0_0_1_n_n.lhsIdx j k 0).val = (j 0).val := by
  unfold DotDims.lhsIdx
  rw [dif_neg (show ¬(0 : Fin S256x256.rank) ∈ dot_S256x256_S256x256_S256x256_1_0_0_1_n_n.lhsBatch by decide), dif_pos (show (0 : Fin S256x256.rank) ∈ dot_S256x256_S256x256_S256x256_1_0_0_1_n_n.lhsNonContracting by decide)]
  rfl

theorem square_rhs_col (j : S256x256.Idx) (k : dot_S256x256_S256x256_S256x256_1_0_0_1_n_n.contr.Idx) :
    (dot_S256x256_S256x256_S256x256_1_0_0_1_n_n.rhsIdx j k 1).val = (j 1).val := by
  unfold DotDims.rhsIdx
  rw [dif_neg (show ¬(1 : Fin S256x256.rank) ∈ dot_S256x256_S256x256_S256x256_1_0_0_1_n_n.rhsBatch by decide), dif_pos (show (1 : Fin S256x256.rank) ∈ dot_S256x256_S256x256_S256x256_1_0_0_1_n_n.rhsNonContracting by decide)]
  rfl

theorem tile_lhs_row (j : S1024x256.Idx) (k : dot_S1024x256_S256x256_S1024x256_1_0_0_1_n_n.contr.Idx) :
    (dot_S1024x256_S256x256_S1024x256_1_0_0_1_n_n.lhsIdx j k 0).val = (j 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl

theorem tile_rhs_col (j : S1024x256.Idx) (k : dot_S1024x256_S256x256_S1024x256_1_0_0_1_n_n.contr.Idx) :
    (dot_S1024x256_S256x256_S1024x256_1_0_0_1_n_n.rhsIdx j k 1).val = (j 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-! ## The three products as sums -/

/-- Two [4096, 256] matrices contracted over their ROW axis: entry (p, q) is the inner product of column p of the first and column q of the second. -/
theorem gram_dot_apply (u : FVec Ideal S4096x256 .f32) (v : FVec Ideal S4096x256 .f32) (p : Fin 256) (q : Fin 256) :
    matmul dot_S4096x256_S4096x256_S256x256_0_0_1_1_n_n (some .fp32) u v (constant S256x256 .f32 0x00000000#32) (ix2 p q)
      = ∑ k : Fin 4096, u (ix2 k p) * v (ix2 k q) := by
  refine (Ideal.matmul_constant_zero_apply dot_S4096x256_S4096x256_S256x256_0_0_1_1_n_n (some .fp32) u v (ix2 p q)).trans ?_
  rw [← Equiv.sum_comp (contrEquiv1 dot_S4096x256_S4096x256_S256x256_0_0_1_1_n_n 4096 rfl rfl).symm]
  refine Finset.sum_congr rfl fun k _ => ?_
  have hk := contrEquiv1_symm_val dot_S4096x256_S4096x256_S256x256_0_0_1_1_n_n 4096 rfl rfl k
  have el : dot_S4096x256_S4096x256_S256x256_0_0_1_1_n_n.lhsIdx (ix2 p q) ((contrEquiv1 dot_S4096x256_S4096x256_S256x256_0_0_1_1_n_n 4096 rfl rfl).symm k) = ix2 k p := funext fun a => Fin.ext (by
    match a with
    | ⟨0, _⟩ => exact (dot_S4096x256_S4096x256_S256x256_0_0_1_1_n_n.lhsIdx_val_of_single rfl _ _).trans hk
    | ⟨1, _⟩ => exact gram_lhs_col _ _)
  have er : dot_S4096x256_S4096x256_S256x256_0_0_1_1_n_n.rhsIdx (ix2 p q) ((contrEquiv1 dot_S4096x256_S4096x256_S256x256_0_0_1_1_n_n 4096 rfl rfl).symm k) = ix2 k q := funext fun a => Fin.ext (by
    match a with
    | ⟨0, _⟩ => exact (dot_S4096x256_S4096x256_S256x256_0_0_1_1_n_n.rhsIdx_val_of_single rfl _ _).trans hk
    | ⟨1, _⟩ => exact gram_rhs_col _ _)
  rw [el, er]

/-- The plain product of two [256, 256] matrices. -/
theorem square_dot_apply (u : FVec Ideal S256x256 .f32) (v : FVec Ideal S256x256 .f32) (p : Fin 256) (q : Fin 256) :
    matmul dot_S256x256_S256x256_S256x256_1_0_0_1_n_n (some .fp32) u v (constant S256x256 .f32 0x00000000#32) (ix2 p q)
      = ∑ k : Fin 256, u (ix2 p k) * v (ix2 k q) := by
  refine (Ideal.matmul_constant_zero_apply dot_S256x256_S256x256_S256x256_1_0_0_1_n_n (some .fp32) u v (ix2 p q)).trans ?_
  rw [← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 p q) ((contrEquiv1 dot_S256x256_S256x256_S256x256_1_0_0_1_n_n 256 rfl rfl).symm k) = ix2 p k := funext fun a => Fin.ext (by
    match a with
    | ⟨0, _⟩ => exact square_lhs_row _ _
    | ⟨1, _⟩ => exact (dot_S256x256_S256x256_S256x256_1_0_0_1_n_n.lhsIdx_val_of_single rfl _ _).trans hk)
  have er : dot_S256x256_S256x256_S256x256_1_0_0_1_n_n.rhsIdx (ix2 p q) ((contrEquiv1 dot_S256x256_S256x256_S256x256_1_0_0_1_n_n 256 rfl rfl).symm k) = ix2 k q := funext fun a => Fin.ext (by
    match a with
    | ⟨0, _⟩ => exact (dot_S256x256_S256x256_S256x256_1_0_0_1_n_n.rhsIdx_val_of_single rfl _ _).trans hk
    | ⟨1, _⟩ => exact square_rhs_col _ _)
  rw [el, er]

/-- The plain product of a [1024, 256] row tile and a [256, 256] matrix. -/
theorem tile_dot_apply (u : FVec Ideal S1024x256 .f32) (v : FVec Ideal S256x256 .f32) (p : Fin 1024) (q : Fin 256) :
    matmul dot_S1024x256_S256x256_S1024x256_1_0_0_1_n_n (some .fp32) u v (constant S1024x256 .f32 0x00000000#32) (ix2 p q)
      = ∑ k : Fin 256, u (ix2 p k) * v (ix2 k q) := by
  refine (Ideal.matmul_constant_zero_apply dot_S1024x256_S256x256_S1024x256_1_0_0_1_n_n (some .fp32) u v (ix2 p q)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact tile_lhs_row _ _
    | ⟨1, _⟩ => exact (dot_S1024x256_S256x256_S1024x256_1_0_0_1_n_n.lhsIdx_val_of_single rfl _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (dot_S1024x256_S256x256_S1024x256_1_0_0_1_n_n.rhsIdx_val_of_single rfl _ _).trans hk
    | ⟨1, _⟩ => exact tile_rhs_col _ _)
  rw [el, er]

/-! ## The payloads -/

/-- PAYLOAD 1 at (p, q): the staged weights applied to the Gram matrix of the resident batch. -/
theorem pay1_apply (x0 : Vec Ideal S1x4096x256 .f32) (x1 : Vec Ideal S256x256 .f32) (p q : Fin 256) :
    k0_pay1 (F := Ideal) x0 x1 (ix2 p q)
      = ∑ s : Fin 256, x1 (ix2 p s) * ∑ mm : Fin 4096, x0 (ix3 (0 : Fin 1) mm s) * x0 (ix3 (0 : Fin 1) mm q) := by
  unfold k0_pay1
  rw [shapeCast_self, shapeCast_self]
  refine (square_dot_apply _ _ p q).trans ?_
  refine Finset.sum_congr rfl fun s _ => ?_
  refine congrArg (x1 (ix2 p s) * ·) ?_
  refine (gram_dot_apply _ _ s q).trans ?_
  refine Finset.sum_congr rfl fun mm _ => ?_
  rw [shapeCast_1ab_ab_apply, shapeCast_1ab_ab_apply]

/-- PAYLOAD 2 at (0, r, q): row r of the tile applied to column q of the matrix. -/
theorem pay2_apply (x6 : Vec Ideal S1x1024x256 .f32) (x8 : Vec Ideal S256x256 .f32) (u : Fin 1) (r : Fin 1024) (q : Fin 256) :
    k0_pay2 (F := Ideal) x6 x8 (ix3 u r q) = ∑ k : Fin 256, x6 (ix3 (0 : Fin 1) r k) * x8 (ix2 k q) := by
  unfold k0_pay2
  refine (shapeCast_ab_1ab_apply _ _ u r q).trans ?_
  refine (tile_dot_apply _ _ r q).trans ?_
  refine Finset.sum_congr rfl fun k _ => ?_
  rw [shapeCast_1ab_ab_apply]

end Cert.KernelIdeal.Payload

end
-- ==== Proof.Entry.lean ====
/-
  What the region finds when it is entered, and what its windows read, by coordinates.

  Before the region the host masks the weights (an entry on or below the diagonal, row ≥ column, becomes zero; the
  others are kept) and transposes the result: the weights' window stages that transposed matrix whole at every grid
  point. The activations' window stages, at grid point `t` of the 4 × 4 grid, the whole batch `t / 4` (all 4096 rows);
  the body's row tile is rows `1024 · (t % 4) + r` of that batch; and the output's window at `t` is that same row
  tile of batch `t / 4` in the result array.
-/
import proofs.«114785_j50362786513377_2_alg».proof.Proof.Gen.KernelIdeal.Frame
import proofs.«114785_j50362786513377_2_alg».proof.Proof.Pieces
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.Entry

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The weights with every entry on or below the diagonal replaced by zero. -/
def masked (w : FVec F S256x256 .f32) : FVec F S256x256 .f32 :=
  select (cmpi .sge (addi (iotaInDim S256x256 32 0) (broadcastInDim S256x256 ![] bcast_S_S256x256 (constantI S_ 32 0#32)))
      (iotaInDim S256x256 32 1))
    (broadcastInDim S256x256 ![] bcast_S_S256x256 (constant (F := F) S_ .f32 0x00000000#32)) w

/-- The weights' buffer as the region finds it: the masked weights, transposed. -/
theorem staged_weights (c : Dev nD) :
    (V m c main_v1 : S256x256.Idx → Elt F .f32)
      = transpose S256x256 [1, 0] (masked (m ((c : Thread nD τ).loc main_arg1))) transposes_S256x256_S256x256_1_0 := by
  dsimp only [V]
  simp only [hostOps0, hostOps0_1, List.flatten_cons, List.flatten_nil, List.append_nil, List.cons_append,
    List.nil_append]
  after_results
  rfl

/-- Entry (k, s) of it is entry (s, k) of the masked weights. -/
theorem staged_weights_apply (c : Dev nD) (k s : Fin 256) :
    (V m c main_v1 : S256x256.Idx → Elt F .f32) (ix2 k s) = masked (m ((c : Thread nD τ).loc main_arg1)) (ix2 s k) := by
  rw [staged_weights]
  exact transpose_ix2_apply _ _ k s

/-! ## The grid: batch and row tile of a point, and the printed index maps -/

theorem N16 : cfg0.N = 16 := N_0

/-- The batch a grid point works on. -/
def batchOf (t : Fin cfg0.N) : Fin 4 := ⟨t.val / 4, by have := t.isLt; have := N16; omega⟩
/-- The row tile of that batch it produces. -/
def tileOf (t : Fin cfg0.N) : Fin 4 := ⟨t.val % 4, by omega⟩

/-- The printed index maps and grid coordinates, decided once over the 16 points. -/
theorem index_facts : ∀ t : Fin cfg0.N,
    win0_0.index t (0 : Fin 3) = t.val / 4 ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = t.val % 4 ∧ win0_2.index t (2 : Fin 3) = 0
    ∧ (grid0.coords t 1).val = t.val % 4 :=
  (by decide +kernel : ∀ t : Fin grid0.N, _)

/-! ## The blocks, by coordinates -/

/-- The activations' block at point `t` is batch `t / 4`, whole. -/
theorem batch_block (c : Dev nD) (t : Fin cfg0.N) :
    (iblk m c 0 t : Vec F S1x4096x256 .f32)
      = fun y => m ((c : Thread nD τ).loc main_arg0) (ix3 (batchOf t) (y 1) (y 2)) := by
  obtain ⟨e0, e1, e2, -⟩ := index_facts t
  funext y
  unfold iblk
  rw [View.read_apply]
  show V m c main_arg0 _ = _
  rw [V_main_arg0]
  refine congrArg _ (funext fun a => Fin.ext ?_)
  have h0 : (y 0).val < 1 := (y 0).isLt
  match a with
  | ⟨0, _⟩ => show win0_0.index t (0 : Fin 3) * 1 + 1 * (y 0).val = t.val / 4; rw [e0]; omega
  | ⟨1, _⟩ => show win0_0.index t (1 : Fin 3) * 4096 + 1 * (y 1).val = (y 1).val; rw [e1]; omega
  | ⟨2, _⟩ => show win0_0.index t (2 : Fin 3) * 256 + 1 * (y 2).val = (y 2).val; rw [e2]; omega

/-- The weights' block at every point is the staged matrix, whole. -/
theorem weights_block (c : Dev nD) (t : Fin cfg0.N) :
    (iblk m c 1 t : Vec F S256x256 .f32) = (V m c main_v1 : S256x256.Idx → Elt F .f32) := by
  obtain ⟨-, -, -, e0, e1, -⟩ := index_facts t
  funext y
  unfold iblk
  rw [View.read_apply]
  show V m c main_v1 _ = V m c main_v1 y
  refine congrArg _ (funext fun a => Fin.ext ?_)
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

/-- The body's row tile of a resident batch, at local row `r`, is the batch's row `1024 · (tile number) + r`. -/
theorem tile_apply (i : grid0.Coords) (x0 : Vec F S1x4096x256 .f32) (u : Fin 1) (r : Fin 1024) (k : Fin 256)
    (row : Fin 4096) (hrow : row.val = 1024 * (i 1).val + r.val) :
    Pieces.tile i x0 (ix3 u r k) = x0 (ix3 (0 : Fin 1) row k) := by
  show x0 ((Rect.unit (s := S1x4096x256) (k0_off1 i) S1x1024x256.size (k0_off1_inb i)).emb (ix3 u r k)) = _
  refine congrArg x0 (funext fun a => Fin.ext ?_)
  rw [Rect.emb_apply]
  have hu : u.val = 0 := by omega
  have hoff := k0_off1_eq i
  match a with
  | ⟨0, _⟩ => show k0_off1 i 0 + 1 * u.val = 0; rw [hoff]; show 0 + 1 * u.val = 0; omega
  | ⟨1, _⟩ => show k0_off1 i 1 + 1 * r.val = row.val; rw [hoff]; show 1024 * (i 1).val + 1 * r.val = row.val; omega
  | ⟨2, _⟩ => show k0_off1 i 2 + 1 * k.val = k.val; rw [hoff]; show 0 + 1 * k.val = k.val; omega

end Cert.KernelIdeal.Entry

end
-- ==== Proof.LibERealSums.lean ====
/-
  Finite sums in the extended reals: the coercion from the reals commutes with them, and the law that joins the two
  groupings of a triple product

      Σ_m (Σ_s (Σ_t X n t · W s t) · X m s) · X m q   =   Σ_t X n t · (Σ_s W s t · (Σ_m X m s · X m q)),

  first over the reals (distributivity and exchanging the order of summation), then over the extended reals for
  families all of whose entries are real numbers: there the coercion commutes with products and finite sums, so the
  extended-real identity is the image of the real one. Over arbitrary extended reals the identity fails
  (distributivity does at the infinities), which is why finiteness of the entries is a hypothesis.
-/
import Mathlib

noncomputable section

namespace Cert.Bridge

open Finset

/-- The coercion of the reals into the extended reals commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The two groupings of the triple product agree over the reals: every term is `X n t · W s t · X m s · X m q`,
    summed over `m, s, t` on the left and over `t, s, m` on the right. -/
theorem regroup_real {N D : Type*} [Fintype N] [Fintype D] (X : N → D → ℝ) (W : D → D → ℝ) (n : N) (q : D) :
    ∑ m, (∑ s, (∑ t, X n t * W s t) * X m s) * X m q
      = ∑ t, X n t * (∑ s, W s t * (∑ m, X m s * X m q)) := by
  have hl : ∑ m, (∑ s, (∑ t, X n t * W s t) * X m s) * X m q
      = ∑ m, ∑ s, ∑ t, X n t * W s t * X m s * X m q := by
    refine Finset.sum_congr rfl fun m _ => ?_
    rw [Finset.sum_mul]
    refine Finset.sum_congr rfl fun s _ => ?_
    rw [Finset.sum_mul, Finset.sum_mul]
  have hr : ∑ t, X n t * (∑ s, W s t * (∑ m, X m s * X m q))
      = ∑ t, ∑ s, ∑ m, X n t * W s t * X m s * X m q := by
    refine Finset.sum_congr rfl fun t _ => ?_
    rw [Finset.mul_sum]
    refine Finset.sum_congr rfl fun s _ => ?_
    rw [Finset.mul_sum, Finset.mul_sum]
    refine Finset.sum_congr rfl fun m _ => ?_
    ring
  rw [hl, hr]
  -- m, s, t  →  s, m, t  →  s, t, m  →  t, s, m
  rw [Finset.sum_comm]
  rw [Finset.sum_congr rfl fun s _ => Finset.sum_comm]
  rw [Finset.sum_comm]

/-- The same over the extended reals, for families whose entries are all real numbers. -/
theorem regroup_ereal {N D : Type*} [Fintype N] [Fintype D] (x : N → D → EReal) (w : D → D → EReal)
    (hx : ∀ n d, ∃ r : ℝ, x n d = (r : EReal)) (hw : ∀ s t, ∃ r : ℝ, w s t = (r : EReal)) (n : N) (q : D) :
    ∑ m, (∑ s, (∑ t, x n t * w s t) * x m s) * x m q
      = ∑ t, x n t * (∑ s, w s t * (∑ m, x m s * x m q)) := by
  choose X hX using hx
  choose W hW using hw
  have ex : x = fun n d => ((X n d : ℝ) : EReal) := funext fun n => funext fun d => hX n d
  have ew : w = fun s t => ((W s t : ℝ) : EReal) := funext fun s => funext fun t => hW s t
  subst ex ew
  simp only [← EReal.coe_mul, ← coe_sum]
  exact congrArg _ (regroup_real X W n q)

end Cert.Bridge

end
-- ==== Proof.Spec.lean ====
/-
  The specification. For an array `x` of shape [4, 4096, 256] (batch, row, feature) and a weight matrix `wm` of
  shape [256, 256], both with extended-real entries, and for a batch `b`:

    gram  b s q = Σ_m x[b, m, s] · x[b, m, q]                 the Gram matrix of batch b's rows,
    mixed b t q = Σ_s wm[s, t] · gram b s q                    the transposed weights applied to it,
    kerAt b n q = Σ_t x[b, n, t] · mixed b t q                 a row of the batch applied to that,

  and, grouped the other way round,

    refAt b n q = Σ_m (Σ_s (Σ_t x[b, n, t] · wm[s, t]) · x[b, m, s]) · x[b, m, q].

  When every entry of `x` and `wm` is a real number the two agree (the law of `LibERealSums`), so the two whole-array
  functions `kerG` and `refG` are equal.
-/
import Idealize.ShloMosaic.PureOps.Ideal
import Idealize.ShloMosaic.Lib.ValueIdx
import proofs.«114785_j50362786513377_2_alg».proof.Proof.LibERealSums

noncomputable section

namespace Cert.Bridge

open Idealize.ShloMosaic Idealize.ShloMosaic.ValueIdx

/-- The shape of the activations: batch, row, feature. -/
abbrev SX : Shape := ⟨3, ![4, 4096, 256]⟩
/-- The shape of the weights. -/
abbrev SW : Shape := ⟨2, ![256, 256]⟩

variable (x : SX.Idx → EReal) (wm : SW.Idx → EReal)

/-- The Gram matrix of batch `b`: the inner product of feature columns `s` and `q` over the 4096 rows. -/
def gram (b : Fin 4) (s q : Fin 256) : EReal := ∑ mm : Fin 4096, x (ix3 b mm s) * x (ix3 b mm q)

/-- The transposed weights applied to the Gram matrix. -/
def mixed (b : Fin 4) (t q : Fin 256) : EReal := ∑ s : Fin 256, wm (ix2 s t) * gram x b s q

/-- Row `n` of batch `b` applied to the mixed matrix. -/
def kerAt (b : Fin 4) (n : Fin 4096) (q : Fin 256) : EReal := ∑ t : Fin 256, x (ix3 b n t) * mixed x wm b t q

/-- The same number grouped from the other end: project the row, take inner products with every row, apply to the rows. -/
def refAt (b : Fin 4) (n : Fin 4096) (q : Fin 256) : EReal :=
  ∑ mm : Fin 4096, (∑ s : Fin 256, (∑ t : Fin 256, x (ix3 b n t) * wm (ix2 s t)) * x (ix3 b mm s)) * x (ix3 b mm q)

/-- The whole array, grouped the first way. -/
def kerG : SX.Idx → EReal := fun i => kerAt x wm (i 0) (i 1) (i 2)

/-- The whole array, grouped the second way. -/
def refG : SX.Idx → EReal := fun i => refAt x wm (i 0) (i 1) (i 2)

theorem kerG_ix3 (b : Fin 4) (n : Fin 4096) (q : Fin 256) : kerG x wm (ix3 b n q) = kerAt x wm b n q := rfl
theorem refG_ix3 (b : Fin 4) (n : Fin 4096) (q : Fin 256) : refG x wm (ix3 b n q) = refAt x wm b n q := rfl

/-- With real entries the two groupings agree at every coordinate. -/
theorem refAt_eq_kerAt (hx : ∀ i, ∃ r : ℝ, x i = (r : EReal)) (hw : ∀ i, ∃ r : ℝ, wm i = (r : EReal))
    (b : Fin 4) (n : Fin 4096) (q : Fin 256) : refAt x wm b n q = kerAt x wm b n q :=
  regroup_ereal (N := Fin 4096) (D := Fin 256) (fun n d => x (ix3 b n d)) (fun s t => wm (ix2 s t))
    (fun _ _ => hx _) (fun _ _ => hw _) n q

/-- So the two whole-array functions are equal. -/
theorem refG_eq_kerG (hx : ∀ i, ∃ r : ℝ, x i = (r : EReal)) (hw : ∀ i, ∃ r : ℝ, wm i = (r : EReal)) :
    refG x wm = kerG x wm :=
  funext fun i => refAt_eq_kerAt x wm hx hw (i 0) (i 1) (i 2)

end Cert.Bridge

end
-- ==== Proof.Whole.lean ====
/-
  The kernel's result array as one function of its arguments, at the ideal instance.

  Write `x` for the activations as launched and `wm` for the masked weights. At grid point `t` (batch `t / 4`,
  row tile `t % 4`):

   · payload 1 of the point's blocks is the mixed matrix of the batch, `mixed x wm (t / 4)`: the weights' block is the
     masked weights transposed, so `Σ_s wt[p, s] · gram[s, q] = Σ_s wm[s, p] · gram[s, q]`;
   · THE CARRIED SCRATCH holds that matrix after EVERY point — at a batch's first tile it is stored, at the later tiles
     of the same batch it is carried, and `(t − 1) / 4 = t / 4` there (induction on the point);
   · so the output block at `t` is the row tile applied to that matrix: entry (0, r, q) is
     `Σ_k x[t / 4, 1024 · (t % 4) + r, k] · mixed (t / 4) k q`, the specification's `kerAt` at row
     `1024 · (t % 4) + r` — block `t` of the whole-array function `kerG x wm`;
   · the 16 blocks tile the result array (index `(b, n, q)` lies in the block of point `4 b + n / 1024`), so the array
     after the run is `kerG x wm`.
-/
import proofs.«114785_j50362786513377_2_alg».proof.Proof.Gen.KernelIdeal.Value
import proofs.«114785_j50362786513377_2_alg».proof.Proof.Pieces
import proofs.«114785_j50362786513377_2_alg».proof.Proof.Payloads
import proofs.«114785_j50362786513377_2_alg».proof.Proof.Entry
import proofs.«114785_j50362786513377_2_alg».proof.Proof.Spec
import Idealize.ShloMosaic.Lib.Pipeline.Value
import Idealize.ShloMosaic.Lib.ValueIdx

noncomputable section

namespace Cert.KernelIdeal.Whole

open Idealize.ShloMosaic Idealize.ShloMosaic.TcCoe Idealize.SL.Sem Idealize.ShloMosaic.ValueIdx
open Cert.KernelIdeal Cert.KernelIdeal.Gen Cert.KernelIdeal.Entry
open Idealize.ShloMosaic.Pipeline (Dat)

variable (m : (ℓ : Loc nD τ sig) → Buf (Elt Ideal) ℓ) (ρ : Dev nD → PrngReg)

/-- The activations as launched. -/
abbrev xOf (c : Dev nD) : Bridge.SX.Idx → EReal := m ((c : Thread nD τ).loc main_arg0)
/-- The masked weights. -/
abbrev wOf (c : Dev nD) : Bridge.SW.Idx → EReal := masked (F := Ideal) (m ((c : Thread nD τ).loc main_arg1))

/-- The mixed matrix of batch `b`, as a [256, 256] vector. -/
def mixedMat (c : Dev nD) (b : Fin 4) : Vec Ideal S256x256 .f32 :=
  fun j => Bridge.mixed (xOf m c) (wOf m c) b (j 0) (j 1)

/-- Payload 1 of the blocks at `t` is the mixed matrix of `t`'s batch. -/
theorem pay1_blocks (c : Dev nD) (t : Fin cfg0.N) :
    k0_pay1 (F := Ideal) (iblk m c 0 t) (iblk m c 1 t) = mixedMat m c (batchOf t) := by
  rw [batch_block m c t, weights_block m c t]
  funext j
  obtain ⟨p, q, rfl⟩ : ∃ (p q : Fin 256), j = ix2 p q := ⟨j 0, j 1, eq_ix2 j⟩
  refine (Payload.pay1_apply _ _ p q).trans ?_
  show _ = Bridge.mixed (xOf m c) (wOf m c) (batchOf t) p q
  unfold Bridge.mixed Bridge.gram
  refine Finset.sum_congr rfl fun s _ => ?_
  rw [staged_weights_apply]
  rfl

/-! ## The carried scratch -/

/-- At the first tile of a batch the scratch is left holding the batch's mixed matrix. -/
theorem scratch_at_first (c : Dev nD) (t : Fin cfg0.N) (h0 : t.val % 4 = 0) :
    (outsAt0 m c t.val t.isLt).2 = mixedMat m c (batchOf t) := by
  rw [outsAt0_A m c t h0]
  dsimp only
  exact (Pieces.scratch_first (F := Ideal) c (grid0.coords t) (ms0_0 t) (hs0_0 t) (ms0_1 t) (hs0_1 t) (ms0_2 t) (hs0_2 t) scM0_0 (Memref.isWhole_whole _) ((hcond0_0 t).mpr h0) (iblk m c 0 t) (iblk m c 1 t)).trans
    (pay1_blocks m c t)

/-- After EVERY point the scratch holds the mixed matrix of the point's batch. -/
theorem scratch_after (c : Dev nD) : ∀ (n : ℕ) (hn : n < cfg0.N), (outsAt0 m c n hn).2 = mixedMat m c (batchOf ⟨n, hn⟩) := by
  intro n
  induction n with
  | zero => intro hn; exact scratch_at_first m c ⟨0, hn⟩ rfl
  | succ n ih =>
    intro hn
    by_cases h0 : (n + 1) % 4 = 0
    · exact scratch_at_first m c ⟨n + 1, hn⟩ h0
    · rw [outsAt0_B m c ⟨n + 1, hn⟩ h0]
      dsimp only
      unfold sout0_B_0
      show (outsAt0 m c n (Nat.lt_of_succ_lt hn)).2 = _
      rw [ih (Nat.lt_of_succ_lt hn)]
      refine congrArg (mixedMat m c) (Fin.ext ?_)
      show n / 4 = (n + 1) / 4
      omega

/-! ## The output block -/

/-- What the body leaves in the output's staging buffer at `t`: the row tile applied to the batch's mixed matrix. -/
theorem out_at (c : Dev nD) (t : Fin cfg0.N) :
    (outsAt0 m c t.val t.isLt).1
      = k0_pay2 (F := Ideal) (Pieces.tile (grid0.coords t) (iblk m c 0 t)) (mixedMat m c (batchOf t)) := by
  by_cases h0 : t.val % 4 = 0
  · rw [outsAt0_A m c t h0]
    dsimp only
    exact (Pieces.out_first (F := Ideal) c (grid0.coords t) (ms0_0 t) (hs0_0 t) (ms0_1 t) (hs0_1 t) (ms0_2 t) (hs0_2 t) scM0_0 (Memref.isWhole_whole _) ((hcond0_0 t).mpr h0) (iblk m c 0 t) (iblk m c 1 t)).trans
      (congrArg (k0_pay2 (F := Ideal) (Pieces.tile (grid0.coords t) (iblk m c 0 t))) (pay1_blocks m c t))
  · have hpos : 0 < t.val := by omega
    have hlt : t.val - 1 < cfg0.N := Nat.lt_of_le_of_lt (Nat.sub_le _ _) t.isLt
    rw [outsAt0_B m c t h0]
    dsimp only
    refine (Pieces.out_later (F := Ideal) c (grid0.coords t) (ms0_0 t) (hs0_0 t) (ms0_1 t) (hs0_1 t) (ms0_2 t) (hs0_2 t) scM0_0 (Memref.isWhole_whole _) (fun h => h0 ((hcond0_0 t).mp h)) (iblk m c 0 t) (iblk m c 1 t)
      (outsAt0 m c (t.val - 1) hlt).2).trans ?_
    refine congrArg (k0_pay2 (F := Ideal) (Pieces.tile (grid0.coords t) (iblk m c 0 t))) ?_
    rw [scratch_after m c (t.val - 1) hlt]
    refine congrArg (mixedMat m c) (Fin.ext ?_)
    show (t.val - 1) / 4 = t.val / 4
    omega

/-- Its entry at local row `y 1`, column `y 2`: the specification at the batch's row `1024 · (t % 4) + y 1`. -/
theorem out_entry (c : Dev nD) (t : Fin cfg0.N) (y : S1x1024x256.Idx) (row : Fin 4096)
    (hrow : row.val = 1024 * (t.val % 4) + (y 1).val) :
    k0_pay2 (F := Ideal) (Pieces.tile (grid0.coords t) (iblk m c 0 t)) (mixedMat m c (batchOf t)) y
      = Bridge.kerAt (xOf m c) (wOf m c) (batchOf t) row (y 2) := by
  obtain ⟨-, -, -, -, -, -, -, -, ec⟩ := index_facts t
  obtain ⟨u, r, q, rfl⟩ : ∃ (u : Fin 1) (r : Fin 1024) (q : Fin 256), y = ix3 u r q := ⟨y 0, y 1, y 2, eq_ix3 y⟩
  refine (Payload.pay2_apply (Pieces.tile (grid0.coords t) (iblk m c 0 t)) (mixedMat m c (batchOf t)) u r q).trans ?_
  show _ = Bridge.kerAt (xOf m c) (wOf m c) (batchOf t) row q
  unfold Bridge.kerAt
  refine Finset.sum_congr rfl fun k _ => ?_
  rw [tile_apply (grid0.coords t) (iblk m c 0 t) 0 r k row (by rw [ec]; exact hrow), batch_block m c t]
  rfl

/-- WHAT POINT `t` WRITES BACK is block `t` of the specification. -/
theorem flushed_eq (c : Dev nD) (t : Fin cfg0.N) :
    (dats m 0 c).flushed 2 t = ((cfg0.win 2).blk t).view.read (Elt Ideal) (Bridge.kerG (xOf m c) (wOf m c)) := by
  rw [Value.flushed2, out_at]
  obtain ⟨-, -, -, -, -, e0, e1, e2, -⟩ := index_facts t
  funext y
  have h0 : (y 0).val < 1 := (y 0).isLt
  have h1 : (y 1).val < 1024 := (y 1).isLt
  have h2 : (y 2).val < 256 := (y 2).isLt
  have hrowlt : 1024 * (t.val % 4) + (y 1).val < 4096 := by omega
  show k0_pay2 (F := Ideal) (Pieces.tile (grid0.coords t) (iblk m c 0 t)) (mixedMat m c (batchOf t)) y
    = Bridge.kerG (xOf m c) (wOf m c) (((cfg0.win 2).blk t).view.emb y)
  have hemb : ((cfg0.win 2).blk t).view.emb y
      = ix3 (batchOf t) (⟨1024 * (t.val % 4) + (y 1).val, hrowlt⟩ : Fin 4096) (⟨(y 2).val, h2⟩ : Fin 256) := by
    funext a; apply Fin.ext
    match a with
    | ⟨0, _⟩ => show win0_2.index t (0 : Fin 3) * 1 + 1 * (y 0).val = t.val / 4; rw [e0]; omega
    | ⟨1, _⟩ => show win0_2.index t (1 : Fin 3) * 1024 + 1 * (y 1).val = 1024 * (t.val % 4) + (y 1).val; rw [e1]; omega
    | ⟨2, _⟩ => show win0_2.index t (2 : Fin 3) * 256 + 1 * (y 2).val = (y 2).val; rw [e2]; omega
  rw [hemb, Bridge.kerG_ix3]
  exact out_entry m c t y _ rfl

/-! ## From the blocks to the array -/

/-- An index of the result array is in point `t`'s block iff each coordinate is in the block's range on its axis. -/
theorem mem_blk (t : Fin cfg0.N) (i : S4x4096x256.Idx) :
    i ∈ ((cfg0.win 2).blk t).view.set ↔ ∀ a : Fin 3, win0_2.index t a * S1x1024x256.size a ≤ (i a).val
      ∧ (i a).val < win0_2.index t a * S1x1024x256.size a + S1x1024x256.size a := by
  show i ∈ ((View.whole main_v2).slice (win0_2.rect t)).set ↔ _
  rw [View.set_slice_whole, Rect.mem_set_unit]
  exact Iff.rfl

/-- THE ARRAY after the run is the specification: index (b, n, q) is written by point `4 b + n / 1024`. -/
theorem final (c : Dev nD) : (dats m 0 c).arrAt 2 cfg0.N = Bridge.kerG (xOf m c) (wOf m c) :=
  (dats m 0 c).arrAt_eq_of_cover 2 (Bridge.kerG (xOf m c) (wOf m c)) (fun t _ => flushed_eq m c t) fun i => by
    have hi0 : (i 0).val < 4 := (i 0).isLt
    have hi1 : (i 1).val < 4096 := (i 1).isLt
    have hi2 : (i 2).val < 256 := (i 2).isLt
    have hN := N16
    have htlt : 4 * (i 0).val + (i 1).val / 1024 < cfg0.N := by omega
    refine ⟨⟨4 * (i 0).val + (i 1).val / 1024, htlt⟩, flush0_2 _, ?_⟩
    rw [mem_blk]
    obtain ⟨-, -, -, -, -, e0, e1, e2, -⟩ := index_facts ⟨4 * (i 0).val + (i 1).val / 1024, htlt⟩
    intro a
    match a with
    | ⟨0, _⟩ =>
      show win0_2.index ⟨4 * (i 0).val + (i 1).val / 1024, htlt⟩ (0 : Fin 3) * 1 ≤ (i 0).val
        ∧ (i 0).val < win0_2.index ⟨4 * (i 0).val + (i 1).val / 1024, htlt⟩ (0 : Fin 3) * 1 + 1
      rw [e0]; dsimp only; omega
    | ⟨1, _⟩ =>
      show win0_2.index ⟨4 * (i 0).val + (i 1).val / 1024, htlt⟩ (1 : Fin 3) * 1024 ≤ (i 1).val
        ∧ (i 1).val < win0_2.index ⟨4 * (i 0).val + (i 1).val / 1024, htlt⟩ (1 : Fin 3) * 1024 + 1024
      rw [e1]; dsimp only; omega
    | ⟨2, _⟩ =>
      show win0_2.index ⟨4 * (i 0).val + (i 1).val / 1024, htlt⟩ (2 : Fin 3) * 256 ≤ (i 2).val
        ∧ (i 2).val < win0_2.index ⟨4 * (i 0).val + (i 1).val / 1024, htlt⟩ (2 : Fin 3) * 256 + 256
      rw [e2]; omega

/-- The run, read: the result array at the specification, the arguments unchanged. -/
theorem run : θ_run defs (onTc (τ := τ) (main (F := Ideal))) ⟨m, fun _ => 0, ρ⟩ fun r => ∀ c : Dev nD,
      r.2.mem ((c : Thread nD τ).loc main_v2) = Bridge.kerG (xOf m c) (wOf m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefValue.lean ====
/-
  The reference's result is the specification grouped from the other end.

  The reference projects each row through the masked weights (`v1[b, n, s] = Σ_t x[b, n, t] · wm[s, t]`), takes the
  inner products of the projected row with every row of the batch (`v2[b, n, m] = Σ_s v1[b, n, s] · x[b, m, s]`), and
  applies those to the rows (`v3[b, n, q] = Σ_m v2[b, n, m] · x[b, m, q]`). Reading the three contractions at an index,
  outermost first, gives `refAt x wm b n q` term by term; the masked weights stay one unopened function.
-/
import proofs.«114785_j50362786513377_2_alg».proof.Proof.Gen.ReferenceIdeal.Read
import proofs.«114785_j50362786513377_2_alg».proof.Proof.Spec
import Idealize.ShloMosaic.Lib.ValueIdx

noncomputable section

namespace Cert.ReferenceIdeal.RefValue

open Idealize.ShloMosaic Idealize.ShloMosaic.ValueIdx Cert.ReferenceIdeal Cert.ReferenceIdeal.Read

/-- The reference's last stage is `refG` of the activations and the masked weights. -/
theorem result_eq (x0 : (⟨S4x4096x256, .f32⟩ : BufTy).Contents (Elt Ideal)) (x1 : (⟨S256x256, .f32⟩ : BufTy).Contents (Elt Ideal)) :
    val_main_v3 (F := Ideal) x0 x1 = Bridge.refG x0 (val_main_v0 (F := Ideal) x1) := by
  funext i
  obtain ⟨b, n, q, rfl⟩ : ∃ (b : Fin 4) (n : Fin 4096) (q : Fin 256), i = ix3 b n q := ⟨i 0, i 1, i 2, eq_ix3 i⟩
  rw [Bridge.refG_ix3]
  unfold Bridge.refAt
  rw [val_main_v3_apply]
  refine Finset.sum_congr rfl fun mm _ => ?_
  have e3r : ridx_main_v3 (ix3 b n q) mm = ix3 b mm q := funext fun a => Fin.ext (by match a with | ⟨0, _⟩ => rfl | ⟨1, _⟩ => rfl | ⟨2, _⟩ => rfl)
  rw [e3r, val_main_v2_apply]
  refine congrArg (· * x0 (ix3 b mm q)) ?_
  refine Finset.sum_congr rfl fun s _ => ?_
  have e2r : ridx_main_v2 (lidx_main_v3 (ix3 b n q) mm) s = ix3 b mm s := funext fun a => Fin.ext (by match a with | ⟨0, _⟩ => rfl | ⟨1, _⟩ => rfl | ⟨2, _⟩ => rfl)
  rw [e2r, val_main_v1_apply]
  refine congrArg (· * x0 (ix3 b mm s)) ?_
  refine Finset.sum_congr rfl fun t _ => ?_
  have e1l : lidx_main_v1 (lidx_main_v2 (lidx_main_v3 (ix3 b n q) mm) s) t = ix3 b n t := funext fun a => Fin.ext (by match a with | ⟨0, _⟩ => rfl | ⟨1, _⟩ => rfl | ⟨2, _⟩ => rfl)
  have e1r : ridx_main_v1 (lidx_main_v2 (lidx_main_v3 (ix3 b n q) mm) s) t = ix2 s t := funext fun a => Fin.ext (by match a with | ⟨0, _⟩ => rfl | ⟨1, _⟩ => rfl)
  rw [e1l, e1r]

end Cert.ReferenceIdeal.RefValue

end
-- ==== Proof.Finite.lean ====
/-
  From the precondition to real entries.

  The precondition is the conjunction of two `all`s: every entry of each argument has absolute value below the f32
  word `0x7F800000`, which at the ideal instance is +∞. An extended real `x` with `max x (−x) < +∞` is neither
  infinity, hence a real number. So under the precondition every entry of both arguments is a real number — what the
  law of finite sums needs.
-/
import proofs.«114785_j50362786513377_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

namespace Cert.Pre_finite_inputs.Decode

open Idealize.ShloMosaic Idealize.ShloMosaic.ValueIdx Cert.Pre_finite_inputs

instance : Subsingleton S_.Idx := ⟨fun a b => funext fun d => d.elim0⟩

/-- The f32 word of +∞ is +∞. -/
theorem inf_word : Ideal.ofBits .f32 0x7F800000#32 = (⊤ : EReal) := by simp [Ideal.ofBits, Ideal.ieee]

/-- An extended real whose absolute value compares below +∞ is a real number. -/
theorem real_of_abs_lt_inf (x : EReal)
    (h : Ideal.cmp .olt (max x (-x)) (Ideal.ofBits .f32 0x7F800000#32) = 1#1) : ∃ r : ℝ, x = (r : EReal) := by
  rw [inf_word] at h
  have hlt : max x (-x) < ⊤ := by
    by_contra hc
    simp [Ideal.cmp, hc] at h
  induction x using EReal.rec with
  | bot => simp at hlt
  | coe r => exact ⟨r, rfl⟩
  | top => simp at hlt

variable [Facts]

/-- Under the precondition every entry of both arguments is a real number. -/
theorem real_entries (x0 : FVec Ideal S4x4096x256 .f32) (x1 : FVec Ideal S256x256 .f32)
    (h : fn (F := Ideal) x0 x1 = fun _ => 1#1) :
    (∀ i, ∃ r : ℝ, x0 i = (r : EReal)) ∧ (∀ i, ∃ r : ℝ, x1 i = (r : EReal)) := by
  have h0 := congrFun h ix0
  dsimp only [fn] at h0
  have h1 : _ ∧ _ := IntOp.andi_eq_one.mp h0
  refine ⟨fun i => ?_, fun i => ?_⟩
  · exact real_of_abs_lt_inf (x0 i) (Host.reduce_andi_all _ _ _ _ ix0 h1.1 i)
  · exact real_of_abs_lt_inf (x1 i) (Host.reduce_andi_all _ _ _ _ ix0 h1.2 i)

end Cert.Pre_finite_inputs.Decode

end
-- ==== Proof.Claims.lean ====
/-
  The five claims.

  The two kernel frames are the generated ones; the reference's frame is its generated run with the result dropped;
  the ideal pass rewrote nothing, so `preserves` is `True`. For `algebraic`: at the ideal instance the kernel's result
  array ends at `kerG x wm` (x the activations, wm the masked weights: module `Whole`) and the reference's at
  `refG x wm` (module `RefValue`) of arguments that agree; the mask is the same function on both sides; under the
  precondition every entry of `x` and of the weights is a real number (module `Finite`), masking keeps that (an entry
  becomes zero or stays), and then the two groupings of the triple sum are equal (module `Spec`).
-/
import proofs.«114785_j50362786513377_2_alg».proof.Defs
import proofs.«114785_j50362786513377_2_alg».proof.Proof.Gen.Kernel.Frame
import proofs.«114785_j50362786513377_2_alg».proof.Proof.Gen.KernelIdeal.Frame
import proofs.«114785_j50362786513377_2_alg».proof.Proof.Gen.ReferenceIdeal.Run
import proofs.«114785_j50362786513377_2_alg».proof.Proof.Gen.ReferenceIdeal.Read
import proofs.«114785_j50362786513377_2_alg».proof.Proof.Gen.Pre_finite_inputs
import proofs.«114785_j50362786513377_2_alg».proof.Proof.Whole
import proofs.«114785_j50362786513377_2_alg».proof.Proof.RefValue
import proofs.«114785_j50362786513377_2_alg».proof.Proof.Finite
import proofs.«114785_j50362786513377_2_alg».proof.Proof.Spec

noncomputable section

namespace Cert.Proof.Claims

open Idealize.ShloMosaic Idealize.ShloMosaic.TcCoe Idealize.SL.Sem Idealize.ShloMosaic.ValueIdx

/-- Masking keeps real entries real: an entry is replaced by zero or kept. -/
theorem masked_real (w : FVec Ideal Cert.KernelIdeal.S256x256 .f32) (hw : ∀ i, ∃ r : ℝ, w i = (r : EReal))
    (i : Cert.KernelIdeal.S256x256.Idx) : ∃ r : ℝ, Cert.KernelIdeal.Entry.masked (F := Ideal) w i = (r : EReal) := by
  unfold Cert.KernelIdeal.Entry.masked
  rw [select_apply]
  unfold Scalar.select
  split
  · refine ⟨0, ?_⟩
    show Ideal.ofBits .f32 0x00000000#32 = ((0 : ℝ) : EReal)
    rw [Ideal.ofBits_zero_f32, EReal.coe_zero]
  · exact hw i

/-- The reference's mask and the kernel's are one function. -/
theorem mask_eq (w : FVec Ideal Cert.KernelIdeal.S256x256 .f32) :
    Cert.ReferenceIdeal.Read.val_main_v0 (F := Ideal) w = Cert.KernelIdeal.Entry.masked (F := Ideal) w := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' hpre hagree
  refine ⟨fun c => Bridge.kerG (Cert.KernelIdeal.Whole.xOf m c) (Cert.KernelIdeal.Whole.wOf m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v3_eq, Cert.ReferenceIdeal.RefValue.result_eq, mask_eq]
  have hfin := Cert.Pre_finite_inputs.Decode.real_entries _ _ (hpre c)
  exact Bridge.refG_eq_kerG _ _ hfin.1 (masked_real _ hfin.2)

end Cert.Proof.Claims

end
-- ==== Proof.lean ====
/-
  The certificate of a Pallas kernel for bilinear (softmax-free) attention with a strictly upper-triangular projection,
  against its jnp reference, over the extended reals.

  With x[b, n, t] the activations (4 batches × 4096 rows × 256 features) and wm the weights with every entry on or
  below the diagonal zeroed, the reference computes

      out[b, n, q] = Σ_m (Σ_s (Σ_t x[b, n, t] · wm[s, t]) · x[b, m, s]) · x[b, m, q]

  (project the row, inner products with all 4096 rows, apply to the rows), while the kernel never forms the
  4096 × 4096 inner products: per batch it forms the 256 × 256 Gram matrix Σ_m x[b, m, s] · x[b, m, q] once, applies
  the transposed masked weights to it, keeps that matrix in a scratch carried across the four row tiles of the batch,
  and multiplies each 1024-row tile by it:

      out[b, n, q] = Σ_t x[b, n, t] · (Σ_s wm[s, t] · (Σ_m x[b, m, s] · x[b, m, q])).

  Every term of either triple sum is x[b, n, t] · wm[s, t] · x[b, m, s] · x[b, m, q]; the two differ by distributing
  and reordering finite sums, which is valid for real numbers and fails at the infinities — so the precondition
  (every input finite) is used, and only there.

  Modules: LibERealSums (the law, over ℝ and lifted to the extended reals) · Spec (the two groupings as functions of the
  arrays, and their equality) · Payloads (the body's two payloads as sums) · Pieces (what each case of the body leaves
  behind) · Entry (what the region finds and what its windows read) · Whole (the carried scratch by induction on the
  grid point; the blocks; the result array) · RefValue (the reference as the specification) · Finite (the precondition
  decoded) · Claims (the five claims).
-/
import proofs.«114785_j50362786513377_2_alg».proof.Defs
import proofs.«114785_j50362786513377_2_alg».proof.Proof.Gen.Kernel
import proofs.«114785_j50362786513377_2_alg».proof.Proof.Gen.KernelIdeal
import proofs.«114785_j50362786513377_2_alg».proof.Proof.Gen.ReferenceIdeal
import proofs.«114785_j50362786513377_2_alg».proof.Proof.Gen.Pre_finite_inputs
import proofs.«114785_j50362786513377_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
